-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x384 : Shape := ⟨3, ![16, 4096, 384]⟩
abbrev S16x384 : Shape := ⟨2, ![16, 384]⟩
abbrev S1x384x384 : Shape := ⟨3, ![1, 384, 384]⟩
abbrev S_ : Shape := ⟨0, ![]⟩

class Facts : Prop where
  bcast_S_S16x4096x384 : S_.BroadcastsInDim S16x4096x384 (![] : Fin 0 → Fin S16x4096x384.rank)
  reducesTo_S16x4096x384_S_d0_1_2 : S16x4096x384.ReducesTo [0, 1, 2] S_
  h_S_ : 0 < S_.numel
  bcast_S_S16x384 : S_.BroadcastsInDim S16x384 (![] : Fin 0 → Fin S16x384.rank)
  reducesTo_S16x384_S_d0_1 : S16x384.ReducesTo [0, 1] S_
  bcast_S_S1x384x384 : S_.BroadcastsInDim S1x384x384 (![] : Fin 0 → Fin S1x384x384.rank)
  reducesTo_S1x384x384_S_d0_1_2 : S1x384x384.ReducesTo [0, 1, 2] S_

variable [Facts]

def fn {F : FTy → Type} [FloatOps F] (main_arg0 : FVec F S16x4096x384 .f32) (main_arg1 : FVec F S16x384 .f32) (main_arg2 : FVec F S1x384x384 .f32) : IVec S_ 1 :=
  let main_v0 : FVec F S16x4096x384 .f32 := Host.absf main_arg0
  let main_cst : FVec F S_ .f32 := constant S_ .f32 0x7F800000#32
  let main_v1 : FVec F S16x4096x384 .f32 := broadcastInDim S16x4096x384 ![] bcast_S_S16x4096x384 main_cst
  let main_v2 : IVec S16x4096x384 1 := cmpf .olt main_v0 main_v1
  let main_c : IVec S_ 1 := constantI S_ 1 1#1
  let main_v3 : IVec S_ 1 := (fun x v => Host.reduce IntOp.andi x v reducesTo_S16x4096x384_S_d0_1_2 h_S_) main_v2 main_c
  let main_v4 : FVec F S16x384 .f32 := Host.absf main_arg1
  let main_cst_0 : FVec F S_ .f32 := constant S_ .f32 0x7F800000#32
  let main_v5 : FVec F S16x384 .f32 := broadcastInDim S16x384 ![] bcast_S_S16x384 main_cst_0
  let main_v6 : IVec S16x384 1 := cmpf .olt main_v4 main_v5
  let main_c_1 : IVec S_ 1 := constantI S_ 1 1#1
  let main_v7 : IVec S_ 1 := (fun x v => Host.reduce IntOp.andi x v reducesTo_S16x384_S_d0_1 h_S_) main_v6 main_c_1
  let main_v8 : IVec S_ 1 := andi main_v3 main_v7
  let main_v9 : FVec F S1x384x384 .f32 := Host.absf main_arg2
  let main_cst_2 : FVec F S_ .f32 := constant S_ .f32 0x7F800000#32
  let main_v10 : FVec F S1x384x384 .f32 := broadcastInDim S1x384x384 ![] bcast_S_S1x384x384 main_cst_2
  let main_v11 : IVec S1x384x384 1 := cmpf .olt main_v9 main_v10
  let main_c_3 : IVec S_ 1 := constantI S_ 1 1#1
  let main_v12 : IVec S_ 1 := (fun x v => Host.reduce IntOp.andi x v reducesTo_S1x384x384_S_d0_1_2 h_S_) main_v11 main_c_3
  let main_v13 : IVec S_ 1 := andi main_v8 main_v12
  main_v13
-- ==== Kernel.lean ====
abbrev S16x4096x384 : Shape := ⟨3, ![16, 4096, 384]⟩
abbrev S16x384 : Shape := ⟨2, ![16, 384]⟩
abbrev S1x384x384 : Shape := ⟨3, ![1, 384, 384]⟩
abbrev S16x384x4096 : Shape := ⟨3, ![16, 384, 4096]⟩
abbrev S16x1x384 : Shape := ⟨3, ![16, 1, 384]⟩
abbrev S1x1x384 : Shape := ⟨3, ![1, 1, 384]⟩
abbrev S1x384x4096 : Shape := ⟨3, ![1, 384, 4096]⟩
abbrev S384x384 : Shape := ⟨2, ![384, 384]⟩
abbrev S1x384 : Shape := ⟨2, ![1, 384]⟩
abbrev S384 : Shape := ⟨1, ![384]⟩
abbrev S384x1 : Shape := ⟨2, ![384, 1]⟩
abbrev S384x4096 : Shape := ⟨2, ![384, 4096]⟩

abbrev nBuf : Space → Nat
  | .hbm => 7
  | .vmem => 7
  | .smem => 0
  | _ => 0

abbrev bufTy : (tb : Table) → Fin (tcTables nBuf tb) → BufTy
  | .hbm, ⟨0, _⟩ => ⟨S16x4096x384, .f32⟩
  | .hbm, ⟨1, _⟩ => ⟨S16x384, .f32⟩
  | .hbm, ⟨2, _⟩ => ⟨S1x384x384, .f32⟩
  | .hbm, ⟨3, _⟩ => ⟨S16x384x4096, .f32⟩
  | .hbm, ⟨4, _⟩ => ⟨S16x1x384, .f32⟩
  | .hbm, ⟨5, _⟩ => ⟨S16x384x4096, .f32⟩
  | .hbm, ⟨6, _⟩ => ⟨S16x4096x384, .f32⟩
  | .local _ .vmem, ⟨0, _⟩ => ⟨S1x384x384, .f32⟩
  | .local _ .vmem, ⟨1, _⟩ => ⟨S1x1x384, .f32⟩
  | .local _ .vmem, ⟨2, _⟩ => ⟨S1x1x384, .f32⟩
  | .local _ .vmem, ⟨3, _⟩ => ⟨S1x384x4096, .f32⟩
  | .local _ .vmem, ⟨4, _⟩ => ⟨S1x384x4096, .f32⟩
  | .local _ .vmem, ⟨5, _⟩ => ⟨S1x384x4096, .f32⟩
  | .local _ .vmem, ⟨6, _⟩ => ⟨S1x384x4096, .f32⟩
  | _, _ => ⟨S16x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x384_S16x384x4096 : S16x4096x384.ShapeCasts S16x384x4096
  shapeCasts_S16x384_S16x1x384 : S16x384.ShapeCasts S16x1x384
  inb_S1x384x384_S1x384x384_0_0_0 : ∀ a, (![0, 0, 0] : Fin 3 → Nat) a + S1x384x384.size a ≤ S1x384x384.size a
  h_S1x384x384 : 0 < S1x384x384.numel
  shapeCasts_S1x384x384_S384x384 : S1x384x384.ShapeCasts S384x384
  inb_S1x1x384_S1x1x384_0_0_0 : ∀ a, (![0, 0, 0] : Fin 3 → Nat) a + S1x1x384.size a ≤ S1x1x384.size a
  h_S1x1x384 : 0 < S1x1x384.numel
  shapeCasts_S1x1x384_S1x384 : S1x1x384.ShapeCasts S1x384
  broadcasts_S1x384_S384x384 : S1x384.Broadcasts S384x384
  reduces_S384x384_S384 : S384x384.Reduces [1] S384
  shapeCasts_S384_S384x1 : S384.ShapeCasts S384x1
  broadcasts_S384x1_S384x384 : S384x1.Broadcasts S384x384
  bitsLt_bf16_f32 : FTy.bits .bf16 < FTy.bits .f32
  inb_S1x384x4096_S1x384x4096_0_0_0 : ∀ a, (![0, 0, 0] : Fin 3 → Nat) a + S1x384x4096.size a ≤ S1x384x4096.size a
  h_S1x384x4096 : 0 < S1x384x4096.numel
  shapeCasts_S1x384x4096_S384x4096 : S1x384x4096.ShapeCasts S384x4096
  shapeCasts_S384x4096_S1x384x4096 : S384x4096.ShapeCasts S1x384x4096
  shapeCasts_S16x384x4096_S16x4096x384 : S16x384x4096.ShapeCasts S16x4096x384
  dot_S384x384_S384x4096_S384x4096_1_0_0_1_n_n_wf : DotDims.WF S384x384 S384x4096 S384x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x384x384.size a ≤ S1x384x384.size a
  hwx0_0 : ∀ i : grid0.Coords, EltTy.bits .f32 = 32 ∨ (Rect.block (s := S1x384x384) S1x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x384.size a ≤ S16x1x384.size a
  hwx0_1 : ∀ i : grid0.Coords, EltTy.bits .f32 = 32 ∨ (Rect.block (s := S16x1x384) S1x1x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x4096.size a ≤ S16x384x4096.size a
  hwx0_2 : ∀ i : grid0.Coords, EltTy.bits .f32 = 32 ∨ (Rect.block (s := S16x384x4096) S1x384x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384x4096.size a ≤ S16x384x4096.size a
  hwx0_3 : ∀ i : grid0.Coords, EltTy.bits .f32 = 32 ∨ (Rect.block (s := S16x384x4096) S1x384x4096.size (cc0_transform_3 i) (hinb0_3 i)).WholeWords (EltTy.packing .f32)

variable [Facts₀]

def dot_S384x384_S384x4096_S384x4096_1_0_0_1_n_n : DotDims S384x384 S384x4096 S384x4096 where
  lhsContracting := [1]
  rhsContracting := [0]
  lhsNonContracting := [0]
  rhsNonContracting := [1]
  lhsBatch := []
  rhsBatch := []
  wf := dot_S384x384_S384x4096_S384x4096_1_0_0_1_n_n_wf

abbrev win0_0 : Pipeline.Window sig grid0 :=
  Pipeline.Window.ofSpec (Memref.whole main_arg2) S1x384x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x384x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x384x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x384 : Shape := ⟨3, ![16, 4096, 384]⟩
abbrev S16x384 : Shape := ⟨2, ![16, 384]⟩
abbrev S1x384x384 : Shape := ⟨3, ![1, 384, 384]⟩
abbrev S_ : Shape := ⟨0, ![]⟩
abbrev S16x1x384 : Shape := ⟨3, ![16, 1, 384]⟩
abbrev S16x384x384 : Shape := ⟨3, ![16, 384, 384]⟩
abbrev S16x384x1 : Shape := ⟨3, ![16, 384, 1]⟩
abbrev S16x384x4096 : Shape := ⟨3, ![16, 384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x384, .f32⟩
  | .hbm, ⟨1, _⟩ => ⟨S16x384, .f32⟩
  | .hbm, ⟨2, _⟩ => ⟨S1x384x384, .f32⟩
  | .hbm, ⟨3, _⟩ => ⟨S_, .f32⟩
  | .hbm, ⟨4, _⟩ => ⟨S1x384x384, .f32⟩
  | .hbm, ⟨5, _⟩ => ⟨S1x384x384, .f32⟩
  | .hbm, ⟨6, _⟩ => ⟨S16x1x384, .f32⟩
  | .hbm, ⟨7, _⟩ => ⟨S16x384x384, .f32⟩
  | .hbm, ⟨8, _⟩ => ⟨S16x384x384, .f32⟩
  | .hbm, ⟨9, _⟩ => ⟨S16x384x384, .f32⟩
  | .hbm, ⟨10, _⟩ => ⟨S16x384x384, .f32⟩
  | .hbm, ⟨11, _⟩ => ⟨S_, .f32⟩
  | .hbm, ⟨12, _⟩ => ⟨S16x384, .f32⟩
  | .hbm, ⟨13, _⟩ => ⟨S_, .f32⟩
  | .hbm, ⟨14, _⟩ => ⟨S16x384, .f32⟩
  | .hbm, ⟨15, _⟩ => ⟨S16x384, .f32⟩
  | .hbm, ⟨16, _⟩ => ⟨S16x384, .f32⟩
  | .hbm, ⟨17, _⟩ => ⟨S16x384x1, .f32⟩
  | .hbm, ⟨18, _⟩ => ⟨S16x384x384, .f32⟩
  | .hbm, ⟨19, _⟩ => ⟨S16x384x384, .f32⟩
  | .hbm, ⟨20, _⟩ => ⟨S16x384x4096, .f32⟩
  | .hbm, ⟨21, _⟩ => ⟨S16x384x4096, .f32⟩
  | .hbm, ⟨22, _⟩ => ⟨S16x4096x384, .f32⟩
  | _, _ => ⟨S16x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S1x384x384 : S_.BroadcastsInDim S1x384x384 (![] : Fin 0 → Fin S1x384x384.rank)
  bcast_S16x384_S16x1x384_0_2 : S16x384.BroadcastsInDim S16x1x384 (![0, 2] : Fin 2 → Fin S16x1x384.rank)
  bcast_S1x384x384_S16x384x384_0_1_2 : S1x384x384.BroadcastsInDim S16x384x384 (![0, 1, 2] : Fin 3 → Fin S16x384x384.rank)
  bcast_S16x1x384_S16x384x384_0_1_2 : S16x1x384.BroadcastsInDim S16x384x384 (![0, 1, 2] : Fin 3 → Fin S16x384x384.rank)
  reducesTo_S16x384x384_S16x384_d2 : S16x384x384.ReducesTo [2] S16x384
  h_S_ : 0 < S_.numel
  bcast_S_S16x384 : S_.BroadcastsInDim S16x384 (![] : Fin 0 → Fin S16x384.rank)
  bcast_S16x384_S16x384x1_0_1 : S16x384.BroadcastsInDim S16x384x1 (![0, 1] : Fin 2 → Fin S16x384x1.rank)
  bcast_S16x384x1_S16x384x384_0_1_2 : S16x384x1.BroadcastsInDim S16x384x384 (![0, 1, 2] : Fin 3 → Fin S16x384x384.rank)
  shapeCasts_S16x4096x384_S16x384x4096 : S16x4096x384.ShapeCasts S16x384x4096
  shapeCasts_S16x384x4096_S16x4096x384 : S16x384x4096.ShapeCasts S16x4096x384
  dot_S16x384x384_S16x384x4096_S16x384x4096_2_1_1_2_0_0_wf : DotDims.WF S16x384x384 S16x384x4096 S16x384x4096 [2] [1] [1] [2] [0] [0]

variable [Facts₀]

def dot_S16x384x384_S16x384x4096_S16x384x4096_2_1_1_2_0_0 : DotDims S16x384x384 S16x384x4096 S16x384x4096 where
  lhsContracting := [2]
  rhsContracting := [1]
  lhsNonContracting := [1]
  rhsNonContracting := [2]
  lhsBatch := [0]
  rhsBatch := [0]
  wf := dot_S16x384x384_S16x384x4096_S16x384x4096_2_1_1_2_0_0_wf

class Facts : Prop extends Facts₀ where

variable [Facts]
-- ==== Proof.Spec.lean ====
/-
  The mathematics of the modulated, demodulated linear layer, for ONE output entry, over the extended reals.

  Fix a batch element and an output feature. Let `w` be that feature's weight row, `y` the batch element's
  modulation vector and `x` one column of the batch element's input matrix, all of length 384. The modulated weight is
  `c · w k · y k` (`c` the scale constant); the demodulation factor is the reciprocal square root of the modulated
  row's sum of squares plus `ε`; the output entry is the inner product of the demodulated row with `x`:

      out = Σ_k (c · w k · y k) · rsqrt(Σ_k' (c · w k' · y k')² + ε) · x k.

  The whole result is this entry for every batch element `b`, output feature `o` and column `p`: `outArr`. Both
  programs compute exactly this expression, in this order of operations, so no algebraic law is needed to join them —
  only that a sum over the contracted axis is the same sum however it is spelt.
-/
import Idealize.ShloMosaic.PureOps.Ideal
import Idealize.ShloMosaic.Lib.ValueIdx

noncomputable section

namespace Cert.ModLinear

open Idealize.ShloMosaic Idealize.ShloMosaic.ValueIdx

/-- The scale constant `c` (the single-precision value nearest `1/√384`), as both programs spell it. -/
def scaleC : EReal := Ideal.ofBits .f32 0x3D5105EC#32
/-- The stabiliser `ε` (the single-precision value nearest `1e-8`), as both programs spell it. -/
def epsC : EReal := Ideal.ofBits .f32 0x322BCC77#32

/-- The modulated weight: `(c · w k) · y k`. -/
def modw (w y : Fin 384 → EReal) (k : Fin 384) : EReal := (scaleC * w k) * y k

/-- The demodulation factor of a row: `rsqrt(Σ_k (modw k)² + ε)`. -/
def demod (w y : Fin 384 → EReal) : EReal := Ideal.rsqrt ((∑ k : Fin 384, modw w y k * modw w y k) + epsC)

/-- One output entry: the demodulated modulated row against the column `x`. -/
def rowOut (w y x : Fin 384 → EReal) : EReal := ∑ k : Fin 384, (modw w y k * demod w y) * x k

/-- The entry of the result at batch element `b`, output feature `o`, column `p`, from the weight `W` [1, 384, 384], the
    modulation `Y` [16, 384] and the input `X` laid out [16, 384, 4096]. -/
def outAt (W : (⟨3, ![1, 384, 384]⟩ : Shape).Idx → EReal) (Y : (⟨2, ![16, 384]⟩ : Shape).Idx → EReal)
    (X : (⟨3, ![16, 384, 4096]⟩ : Shape).Idx → EReal) (b : Fin 16) (o : Fin 384) (p : Fin 4096) : EReal :=
  rowOut (fun k => W (ix3 (0 : Fin 1) o k)) (fun k => Y (ix2 b k)) (fun k => X (ix3 b k p))

/-- The whole [16, 384, 4096] result. -/
def outArr (W : (⟨3, ![1, 384, 384]⟩ : Shape).Idx → EReal) (Y : (⟨2, ![16, 384]⟩ : Shape).Idx → EReal)
    (X : (⟨3, ![16, 384, 4096]⟩ : Shape).Idx → EReal) : (⟨3, ![16, 384, 4096]⟩ : Shape).Idx → EReal :=
  fun j => outAt W Y X (j 0) (j 1) (j 2)

/-- At an index given by its coordinates it is that entry. -/
theorem outArr_ix3 (W : (⟨3, ![1, 384, 384]⟩ : Shape).Idx → EReal) (Y : (⟨2, ![16, 384]⟩ : Shape).Idx → EReal)
    (X : (⟨3, ![16, 384, 4096]⟩ : Shape).Idx → EReal) (b : Fin 16) (o : Fin 384) (p : Fin 4096) :
    outArr W Y X (ix3 b o p) = outAt W Y X b o p := rfl

/-- The input [16, 4096, 384] read as [16, 384, 4096]: the same row-major sequence, re-cut (not a transpose). -/
theorem relaid_in : (⟨3, ![16, 4096, 384]⟩ : Shape).ShapeCasts ⟨3, ![16, 384, 4096]⟩ := by decide
/-- And the result [16, 384, 4096] read back as [16, 4096, 384]. -/
theorem relaid_out : (⟨3, ![16, 384, 4096]⟩ : Shape).ShapeCasts ⟨3, ![16, 4096, 384]⟩ := by decide

/-- THE RESULT both programs return, as one function of the three arguments: the input re-cut to [16, 384, 4096], the
    entries `outArr` of it, and that array re-cut to [16, 4096, 384]. -/
def result (x0 : (⟨3, ![16, 4096, 384]⟩ : Shape).Idx → EReal) (x1 : (⟨2, ![16, 384]⟩ : Shape).Idx → EReal)
    (x2 : (⟨3, ![1, 384, 384]⟩ : Shape).Idx → EReal) : (⟨3, ![16, 4096, 384]⟩ : Shape).Idx → EReal :=
  shapeCast ⟨3, ![16, 4096, 384]⟩ (outArr x2 x1 (shapeCast ⟨3, ![16, 384, 4096]⟩ x0 relaid_in)) relaid_out

end Cert.ModLinear

end
-- ==== Proof.RefRead.lean ====
/-
  The reference program's result, stage by stage, is the specification's `outArr`.

  The reference forms the modulated weight [16, 384, 384] by two broadcasts and two products, sums its squares over the
  last axis, adds `ε`, takes the reciprocal square root, broadcasts it back along the last axis, multiplies, and
  contracts the last axis against the input laid out [16, 384, 4096]. Read at an index given by coordinates, each stage
  is the corresponding piece of `Cert.ModLinear`: the modulated weight is `modw`, the row's sum of squares is the
  sum inside `demod` (the reduction's initial value is zero), the normalised weight is `modw · demod`, and the
  contraction is `rowOut`. The index maps the broadcasts compose to are identified with coordinate triples once each.
-/
import proofs.«109573_j39444979646806_2_alg».proof.Proof.Gen.ReferenceIdeal.Read
import proofs.«109573_j39444979646806_2_alg».proof.Proof.Spec

noncomputable section

namespace Cert.ReferenceIdeal.RefValue

open Cert.ReferenceIdeal Cert.ReferenceIdeal.Read Cert.ModLinear
open Idealize.ShloMosaic Idealize.ShloMosaic.ValueIdx

variable (x0 : (⟨S16x4096x384, .f32⟩ : BufTy).Contents (Elt Ideal)) (x1 : (⟨S16x384, .f32⟩ : BufTy).Contents (Elt Ideal))
  (x2 : (⟨S1x384x384, .f32⟩ : BufTy).Contents (Elt Ideal))

/-- The modulated weight at `(b, o, k)` is `(c · W[0, o, k]) · Y[b, k]`. -/
theorem modulated_at (b : Fin 16) (o k : Fin 384) :
    val_main_v5 (F := Ideal) x1 x2 (ix3 b o k) = modw (fun k => x2 (ix3 (0 : Fin 1) o k)) (fun k => x1 (ix2 b k)) k := by
  have e3 : idx_main_v3 (ix3 b o k) = ix3 (0 : Fin 1) o k :=
    funext fun a => Fin.ext (by match a with | ⟨0, _⟩ => rfl | ⟨1, _⟩ => rfl | ⟨2, _⟩ => rfl)
  have e42 : idx_main_v2 (idx_main_v4 (ix3 b o k)) = ix2 b k :=
    funext fun a => Fin.ext (by match a with | ⟨0, _⟩ => rfl | ⟨1, _⟩ => rfl)
  rw [val_main_v5_apply, val_main_v3_apply, val_main_v1_apply, val_main_v0_apply, val_main_cst_apply, val_main_v4_apply,
    val_main_v2_apply, e3, e42]
  rfl

/-- The row's sum of squares at `(b, o)`: the reduction starts from zero. -/
theorem sumsq_at (b : Fin 16) (o : Fin 384) :
    val_main_v7 (F := Ideal) x1 x2 (ix2 b o)
      = ∑ k : Fin 384, modw (fun k => x2 (ix3 (0 : Fin 1) o k)) (fun k => x1 (ix2 b k)) k
          * modw (fun k => x2 (ix3 (0 : Fin 1) o k)) (fun k => x1 (ix2 b k)) k := by
  rw [val_main_v7_apply, val_main_cst_0_apply, Ideal.ofBits_def, Ideal.ofBits_zero_f32, zero_add]
  refine Finset.sum_congr rfl fun k _ => ?_
  have e : idx_main_v7 (ix2 b o) k = ix3 b o k :=
    funext fun a => Fin.ext (by match a with | ⟨0, _⟩ => rfl | ⟨1, _⟩ => rfl | ⟨2, _⟩ => rfl)
  rw [e, val_main_v6_apply, modulated_at]
  rfl

/-- The normalised weight at `(b, o, k)` is the modulated weight times the row's demodulation factor. -/
theorem normalised_at (b : Fin 16) (o k : Fin 384) :
    val_main_v13 (F := Ideal) x1 x2 (ix3 b o k)
      = modw (fun k => x2 (ix3 (0 : Fin 1) o k)) (fun k => x1 (ix2 b k)) k
          * demod (fun k => x2 (ix3 (0 : Fin 1) o k)) (fun k => x1 (ix2 b k)) := by
  have e : idx_main_v11 (idx_main_v12 (ix3 b o k)) = ix2 b o :=
    funext fun a => Fin.ext (by match a with | ⟨0, _⟩ => rfl | ⟨1, _⟩ => rfl)
  rw [val_main_v13_apply, modulated_at, val_main_v12_apply, val_main_v11_apply, e, val_main_v10_apply, val_main_v9_apply,
    sumsq_at, val_main_v8_apply, val_main_cst_1_apply]
  rfl

/-- The contraction at `(b, o, p)` is the specification's entry, over the input as the reference lays it out. -/
theorem contracted_at (b : Fin 16) (o : Fin 384) (p : Fin 4096) :
    val_main_v15 (F := Ideal) x0 x1 x2 (ix3 b o p) = outAt x2 x1 (val_main_v14 (F := Ideal) x0) b o p := by
  rw [val_main_v15_apply]
  unfold outAt rowOut
  refine Finset.sum_congr rfl fun k _ => ?_
  have el : lidx_main_v15 (ix3 b o p) k = ix3 b o k :=
    funext fun a => Fin.ext (by match a with | ⟨0, _⟩ => rfl | ⟨1, _⟩ => rfl | ⟨2, _⟩ => rfl)
  have er : ridx_main_v15 (ix3 b o p) k = ix3 b k p :=
    funext fun a => Fin.ext (by match a with | ⟨0, _⟩ => rfl | ⟨1, _⟩ => rfl | ⟨2, _⟩ => rfl)
  rw [el, er, normalised_at]

/-- So the whole contraction stage is `outArr`. -/
theorem contracted_eq : val_main_v15 (F := Ideal) x0 x1 x2 = outArr x2 x1 (val_main_v14 (F := Ideal) x0) := by
  funext j
  obtain ⟨b, o, p, rfl⟩ : ∃ (b : Fin 16) (o : Fin 384) (p : Fin 4096), j = ix3 b o p := ⟨j 0, j 1, j 2, eq_ix3 j⟩
  rw [outArr_ix3]
  exact contracted_at x0 x1 x2 b o p

/-- THE REFERENCE'S RESULT is the specification's `result` of its arguments: its last stage re-cuts the contraction
    stage, whose input operand is the re-cut first argument. -/
theorem result_eq : val_main_v16 (F := Ideal) x0 x1 x2 = result x0 x1 x2 := by
  unfold val_main_v16 result
  rw [contracted_eq]
  rfl

end Cert.ReferenceIdeal.RefValue

end
-- ==== Proof.LibKeepdims.lean ====
/-
  Layout operations that keep or re-insert a UNIT axis, read at an index written by coordinates: the column forms a
  reduction with the reduced axis kept needs. A vector viewed as a column, a column repeated along its unit axis, and
  a matrix with a unit axis inserted between its two axes. Each is the general read-at-an-index lemma of the layout
  operation with the row-major positions (for a cast) or the per-axis coordinates (for a broadcast) worked out once.
  They hold for any extents and any element type.
-/
import Idealize.ShloMosaic.Lib.ValueLayout

namespace Idealize.ShloMosaic.Keepdims

open Idealize.ShloMosaic Idealize.ShloMosaic.ValueIdx

variable {α : Type}

/-- A vector of `a` entries cast to the column `[a, 1]` reads, at `(i, u)`, the vector at `i`: the column's
    row-major position `i * 1 + u` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`: every entry of a
    row is that row's one value. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A matrix `[a, b]` cast to `[a, 1, b]` reads, at `(i, u, j)`, the matrix at `(i, j)`: the inserted unit axis
    does not move the row-major position. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.Keepdims
-- ==== Proof.Payload.lean ====
/-
  What the kernel body stores, read at an index, is the specification's `rowOut` of the loaded blocks.

  At one grid point the body holds the whole weight `v0` [1, 384, 384], the batch element's modulation row `v4`
  [1, 1, 384] and its input matrix `v17` [1, 384, 4096]. It forms the modulated weight [384, 384] — the weight with its
  leading unit axis dropped, times the scale, times the modulation row repeated down the rows —, sums its squares along
  each row, adds `ε`, takes the reciprocal square root, repeats that column across each row and multiplies: the
  normalised weight. That, against the input matrix, through the matrix unit into a zero accumulator, is the stored
  block. At the extended reals the narrowing of both matrix operands to a shorter float format is the identity, the lane
  reduction is the plain sum over a row, and the matrix product into zero is the plain sum over the contracted axis. So
  entry `(u, o, p)` of the stored block is `rowOut` of row `o` of the weight, the modulation row, and column `p` of
  the input.

  The body's pure term is restated here in three named stages (`bodyW`, `bodyNorm`, and the product), equal to the
  generated payload by unfolding; each stage is then read at coordinates.
-/
import proofs.«109573_j39444979646806_2_alg».proof.Proof.Gen.KernelIdeal.Skeleton
import proofs.«109573_j39444979646806_2_alg».proof.Proof.Spec
import proofs.«109573_j39444979646806_2_alg».proof.Proof.LibKeepdims
import Idealize.ShloMosaic.Lib.ValueLayout
import Idealize.ShloMosaic.PureOps.Ideal.Laws

noncomputable section

namespace Cert.KernelIdeal.Payload

open Cert.KernelIdeal Cert.KernelIdeal.Gen Cert.ModLinear
open Idealize.ShloMosaic Idealize.ShloMosaic.ValueIdx Idealize.ShloMosaic.Keepdims

/-! ## The reduction and the matrix product over plain operands -/

/-- A vector reciprocal square root reads, at an index, the scalar one of the entry there. -/
theorem rsqrt_at {s : Shape} {φ : FTy} (a : FVec Ideal s φ) (i : s.Idx) : rsqrt a i = Ideal.rsqrt (a i) := rfl

/-- The lane reduction of a [384, 384] matrix along its rows, from zero: at row `o`, the sum of the row's entries. -/
theorem rowsum_at (S : FVec Ideal S384x384 .f32) (o : Fin 384) :
    multiReduction .add [1] S384 S 0x00000000#32 reduces_S384x384_S384 (.inl rfl) rfl (ix1 o) = ∑ k : Fin 384, S (ix2 o k) :=
  (Ideal.multiReduction_add_single S 0x00000000#32 reduces_S384x384_S384 (.inl rfl) rfl (ix1 o)).trans
    (Finset.sum_congr rfl fun k _ => congrArg S (funext fun a => Fin.ext (by
      match a with
      | ⟨0, _⟩ => rfl
      | ⟨1, _⟩ => rfl)))

/-- The left operand of the body's matrix product is read at the output's row `(i 0)` … -/
theorem lhs_row (i : S384x4096.Idx) (q : dot_S384x384_S384x4096_S384x4096_1_0_0_1_n_n.contr.Idx) :
    (dot_S384x384_S384x4096_S384x4096_1_0_0_1_n_n.lhsIdx i q 0).val = (i 0).val := by
  unfold DotDims.lhsIdx
  rw [dif_neg (show ¬(0 : Fin S384x384.rank) ∈ dot_S384x384_S384x4096_S384x4096_1_0_0_1_n_n.lhsBatch by decide),
    dif_pos (show (0 : Fin S384x384.rank) ∈ dot_S384x384_S384x4096_S384x4096_1_0_0_1_n_n.lhsNonContracting by decide)]
  rfl
/-- … and the contraction position; -/
theorem lhs_contr (i : S384x4096.Idx) (q : dot_S384x384_S384x4096_S384x4096_1_0_0_1_n_n.contr.Idx) :
    (dot_S384x384_S384x4096_S384x4096_1_0_0_1_n_n.lhsIdx i q 1).val = (q ⟨0, by decide⟩).val :=
  dot_S384x384_S384x4096_S384x4096_1_0_0_1_n_n.lhsIdx_val_of_single rfl i q
/-- the right operand at the contraction position … -/
theorem rhs_contr (i : S384x4096.Idx) (q : dot_S384x384_S384x4096_S384x4096_1_0_0_1_n_n.contr.Idx) :
    (dot_S384x384_S384x4096_S384x4096_1_0_0_1_n_n.rhsIdx i q 0).val = (q ⟨0, by decide⟩).val :=
  dot_S384x384_S384x4096_S384x4096_1_0_0_1_n_n.rhsIdx_val_of_single rfl i q
/-- … and the output's column `(i 1)`. -/
theorem rhs_col (i : S384x4096.Idx) (q : dot_S384x384_S384x4096_S384x4096_1_0_0_1_n_n.contr.Idx) :
    (dot_S384x384_S384x4096_S384x4096_1_0_0_1_n_n.rhsIdx i q 1).val = (i 1).val := by
  unfold DotDims.rhsIdx
  rw [dif_neg (show ¬(1 : Fin S384x4096.rank) ∈ dot_S384x384_S384x4096_S384x4096_1_0_0_1_n_n.rhsBatch by decide),
    dif_pos (show (1 : Fin S384x4096.rank) ∈ dot_S384x384_S384x4096_S384x4096_1_0_0_1_n_n.rhsNonContracting by decide)]
  rfl

/-- The matrix product [384, 384] × [384, 4096] into a zero accumulator: at `(o, p)`, the sum over the contracted axis of
    row `o` of the left operand against column `p` of the right. -/
theorem matmul_at {φ₁ φ₂ : FTy} (L : FVec Ideal S384x384 φ₁) (R : FVec Ideal S384x4096 φ₂) (o : Fin 384) (p : Fin 4096) :
    matmul dot_S384x384_S384x4096_S384x4096_1_0_0_1_n_n none L R (constant S384x4096 .f32 0x00000000#32) (ix2 o p)
      = ∑ k : Fin 384, L (ix2 o k) * R (ix2 k p) := by
  simp only [matmul]
  rw [Ideal.matmul_constant_zero_apply, ← Equiv.sum_comp (contrEquiv1 dot_S384x384_S384x4096_S384x4096_1_0_0_1_n_n 384 rfl rfl).symm]
  refine Finset.sum_congr rfl fun k _ => ?_
  have hk := contrEquiv1_symm_val dot_S384x384_S384x4096_S384x4096_1_0_0_1_n_n 384 rfl rfl k
  have el : dot_S384x384_S384x4096_S384x4096_1_0_0_1_n_n.lhsIdx (ix2 o p) ((contrEquiv1 dot_S384x384_S384x4096_S384x4096_1_0_0_1_n_n 384 rfl rfl).symm k) = ix2 o k :=
    funext fun a => Fin.ext (by
      match a with
      | ⟨0, _⟩ => exact lhs_row _ _
      | ⟨1, _⟩ => exact (lhs_contr _ _).trans hk)
  have er : dot_S384x384_S384x4096_S384x4096_1_0_0_1_n_n.rhsIdx (ix2 o p) ((contrEquiv1 dot_S384x384_S384x4096_S384x4096_1_0_0_1_n_n 384 rfl rfl).symm k) = ix2 k p :=
    funext fun a => Fin.ext (by
      match a with
      | ⟨0, _⟩ => exact (rhs_contr _ _).trans hk
      | ⟨1, _⟩ => exact rhs_col _ _)
  rw [el, er]

/-! ## The body's stages -/

/-- The modulated weight as the body forms it. -/
def bodyW (v0 : Vec Ideal S1x384x384 .f32) (v4 : Vec Ideal S1x1x384 .f32) : FVec Ideal S384x384 .f32 :=
  mulf (mulf (broadcast S384x384 (Scalar.ofBits .f32 0x3D5105EC#32)) (shapeCast S384x384 v0 shapeCasts_S1x384x384_S384x384))
    (broadcastTo S384x384 (shapeCast S1x384 v4 shapeCasts_S1x1x384_S1x384) broadcasts_S1x384_S384x384)

/-- The normalised weight as the body forms it. -/
def bodyNorm (v0 : Vec Ideal S1x384x384 .f32) (v4 : Vec Ideal S1x1x384 .f32) : FVec Ideal S384x384 .f32 :=
  mulf (bodyW v0 v4)
    (broadcastTo S384x384
      (rsqrt (addf
        (shapeCast S384x1 (multiReduction .add [1] S384 (mulf (bodyW v0 v4) (bodyW v0 v4)) 0x00000000#32 reduces_S384x384_S384 (.inl rfl) rfl) shapeCasts_S384_S384x1)
        (broadcast S384x1 (Scalar.ofBits .f32 0x322BCC77#32))))
      broadcasts_S384x1_S384x384)

/-- The stored block is the normalised weight against the input matrix, with the block's leading unit axis put back. -/
theorem pay_eq (v0 : Vec Ideal S1x384x384 .f32) (v4 : Vec Ideal S1x1x384 .f32) (v17 : Vec Ideal S1x384x4096 .f32) :
    k0_pay1 (F := Ideal) v0 v4 v17
      = shapeCast S1x384x4096
          (matmul dot_S384x384_S384x4096_S384x4096_1_0_0_1_n_n none (truncf .bf16 (bodyNorm v0 v4) bitsLt_bf16_f32)
            (truncf .bf16 (shapeCast S384x4096 v17 shapeCasts_S1x384x4096_S384x4096) bitsLt_bf16_f32)
            (constant S384x4096 .f32 0x00000000#32))
          shapeCasts_S384x4096_S1x384x4096 := rfl

/-- The modulated weight at `(o, k)`: `(c · weight[0, o, k]) · modulation[0, 0, k]`. -/
theorem bodyW_at (v0 : Vec Ideal S1x384x384 .f32) (v4 : Vec Ideal S1x1x384 .f32) (o k : Fin 384) :
    bodyW v0 v4 (ix2 o k) = modw (fun k => v0 (ix3 (0 : Fin 1) o k)) (fun k => v4 (ix3 (0 : Fin 1) (0 : Fin 1) k)) k := by
  unfold bodyW
  rw [mulf_apply, mulf_apply, broadcast_apply, shapeCast_1ab_ab_apply, broadcastTo_1b_ab_apply, shapeCast_1ab_ab_apply]
  rfl

/-- The normalised weight at `(o, k)`: the modulated weight times row `o`'s demodulation factor. -/
theorem bodyNorm_at (v0 : Vec Ideal S1x384x384 .f32) (v4 : Vec Ideal S1x1x384 .f32) (o k : Fin 384) :
    bodyNorm v0 v4 (ix2 o k)
      = modw (fun k => v0 (ix3 (0 : Fin 1) o k)) (fun k => v4 (ix3 (0 : Fin 1) (0 : Fin 1) k)) k
          * demod (fun k => v0 (ix3 (0 : Fin 1) o k)) (fun k => v4 (ix3 (0 : Fin 1) (0 : Fin 1) k)) := by
  unfold bodyNorm
  rw [mulf_apply, bodyW_at, broadcastTo_a1_ab_apply, rsqrt_at, addf_apply, broadcast_apply, shapeCast_a_a1_apply, rowsum_at]
  unfold demod
  simp only [mulf_apply, bodyW_at]
  rfl

/-- THE STORED BLOCK at `(u, o, p)` is the specification's entry of weight row `o`, the modulation row and input column `p`. -/
theorem pay_at (v0 : Vec Ideal S1x384x384 .f32) (v4 : Vec Ideal S1x1x384 .f32) (v17 : Vec Ideal S1x384x4096 .f32)
    (u : Fin 1) (o : Fin 384) (p : Fin 4096) :
    k0_pay1 (F := Ideal) v0 v4 v17 (ix3 u o p)
      = rowOut (fun k => v0 (ix3 (0 : Fin 1) o k)) (fun k => v4 (ix3 (0 : Fin 1) (0 : Fin 1) k)) (fun k => v17 (ix3 (0 : Fin 1) k p)) := by
  rw [pay_eq, shapeCast_ab_1ab_apply, matmul_at]
  unfold rowOut
  refine Finset.sum_congr rfl fun k _ => ?_
  rw [truncf_apply, truncf_apply, bodyNorm_at, shapeCast_1ab_ab_apply]

end Cert.KernelIdeal.Payload

end
-- ==== Proof.KernelValue.lean ====
/-
  The kernel program's result is the specification's `result` of its arguments.

  The grid has one point per batch element. At point `t` the pipeline stages the whole weight, row `t` of the modulation
  (viewed [16, 1, 384]) and matrix `t` of the input (viewed [16, 384, 4096]), and writes back matrix `t` of the
  [16, 384, 4096] output. The body's stored block, read at `(u, o, p)`, is `rowOut` of weight row `o`, the staged
  modulation row and column `p` of the staged input matrix (Payload.lean); read through the windows, those are the
  arrays' entries at batch element `t`, so what point `t` writes back is block `t` of ONE whole-array function,
  `outArr`. The sixteen blocks tile the output array (the block holding index `i` is the one of batch element `i 0`),
  so the array ends at `outArr`. Before the region the program only re-cuts two arguments (the input to
  [16, 384, 4096], the modulation to [16, 1, 384]); after it, it re-cuts the output to [16, 4096, 384].
-/
import proofs.«109573_j39444979646806_2_alg».proof.Proof.Gen.KernelIdeal.Frame
import proofs.«109573_j39444979646806_2_alg».proof.Proof.Payload
import Idealize.ShloMosaic.Lib.Pipeline.Value
import Idealize.ShloMosaic.Lib.StableHlo.Run

noncomputable section

namespace Cert.KernelIdeal.KValue

open Cert.KernelIdeal Cert.KernelIdeal.Gen Cert.ModLinear
open Idealize.ShloMosaic Idealize.ShloMosaic.TcCoe Idealize.SL.Sem
open Idealize.ShloMosaic.ValueIdx Idealize.ShloMosaic.Keepdims
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-- A grid point is a batch element. -/
def batchOf (t : Fin cfg0.N) : Fin 16 := ⟨t.val, lt_of_lt_of_eq t.isLt N_0⟩

/-! ## The arrays the region finds -/

/-- The input as the region finds it: the argument re-cut to [16, 384, 4096]. -/
theorem entry_input (c : Dev nD) :
    (V m c main_v0 : S16x384x4096.Idx → EReal)
      = shapeCast S16x384x4096 (m ((c : Thread nD τ).loc main_arg0)) shapeCasts_S16x4096x384_S16x384x4096 := by
  show StableHlo.after hostOps0 (fun b => m (c, b)) (Proc.devRef .tc main_v0) = _
  after_results
  rfl

/-- The modulation as the region finds it: the argument re-cut to [16, 1, 384]. -/
theorem entry_modulation (c : Dev nD) :
    (V m c main_v1 : S16x1x384.Idx → EReal)
      = shapeCast S16x1x384 (m ((c : Thread nD τ).loc main_arg1)) shapeCasts_S16x384_S16x1x384 := by
  show StableHlo.after hostOps0 (fun b => m (c, b)) (Proc.devRef .tc main_v1) = _
  after_results
  rfl

/-! ## The windows' blocks -/

/-- The index maps, decided over the sixteen points: the weight's block never moves; the modulation's, the input's and
    the output's blocks are at the point's batch element. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every batch element is some point's. -/
theorem idx_onto : ∀ q : Fin 16, ∃ t : Fin cfg0.N, win0_3.index t = ![q.val, 0, 0] :=
  (by decide +kernel : ∀ q : Fin 16, ∃ t : Fin grid0.N, win0_3.index t = ![q.val, 0, 0])

/-- The staged weight is the whole weight. -/
theorem read_weight (c : Dev nD) (t : Fin cfg0.N) (o k : Fin 384) :
    iblk m c 0 t (ix3 (0 : Fin 1) o k) = V m c main_arg2 (ix3 (0 : Fin 1) o k) := by
  obtain ⟨e0, e1, e2, -⟩ := idx_facts t
  show V m c main_arg2 (((cfg0.win 0).blk t).view.emb (ix3 (0 : Fin 1) o k)) = V m c main_arg2 (ix3 (0 : Fin 1) o k)
  have h : ((cfg0.win 0).blk t).view.emb (ix3 (0 : Fin 1) o k) = ix3 (0 : Fin 1) o k := by
    funext a; apply Fin.ext
    match a with
    | ⟨0, _⟩ => show win0_0.index t (0 : Fin 3) * 1 + 1 * 0 = 0; omega
    | ⟨1, _⟩ => show win0_0.index t (1 : Fin 3) * 384 + 1 * o.val = o.val; omega
    | ⟨2, _⟩ => show win0_0.index t (2 : Fin 3) * 384 + 1 * k.val = k.val; omega
  rw [h]

/-- The staged modulation row is the batch element's row of the modulation argument. -/
theorem read_modulation (c : Dev nD) (t : Fin cfg0.N) (k : Fin 384) :
    iblk m c 1 t (ix3 (0 : Fin 1) (0 : Fin 1) k) = m ((c : Thread nD τ).loc main_arg1) (ix2 (batchOf t) k) := by
  obtain ⟨-, -, -, e0, e1, e2, -⟩ := idx_facts t
  show V m c main_v1 (((cfg0.win 1).blk t).view.emb (ix3 (0 : Fin 1) (0 : Fin 1) k)) = _
  have h : ((cfg0.win 1).blk t).view.emb (ix3 (0 : Fin 1) (0 : Fin 1) k) = ix3 (batchOf t) (0 : Fin 1) k := by
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 384 + 1 * k.val = k.val; omega
  rw [h, entry_modulation]
  exact shapeCast_ab_a1b_apply _ _ (batchOf t) (0 : Fin 1) k

/-- The staged input matrix is the batch element's matrix of the re-cut input. -/
theorem read_input (c : Dev nD) (t : Fin cfg0.N) (k : Fin 384) (p : Fin 4096) :
    iblk m c 2 t (ix3 (0 : Fin 1) k p) = V m c main_v0 (ix3 (batchOf t) k p) := by
  obtain ⟨-, -, -, -, -, -, e0, e1, e2, -⟩ := idx_facts t
  show V m c main_v0 (((cfg0.win 2).blk t).view.emb (ix3 (0 : Fin 1) k p)) = _
  have h : ((cfg0.win 2).blk t).view.emb (ix3 (0 : Fin 1) k p) = ix3 (batchOf t) k p := by
    funext a; apply Fin.ext
    match a with
    | ⟨0, _⟩ => show win0_2.index t (0 : Fin 3) * 1 + 1 * 0 = t.val; omega
    | ⟨1, _⟩ => show win0_2.index t (1 : Fin 3) * 384 + 1 * k.val = k.val; omega
    | ⟨2, _⟩ => show win0_2.index t (2 : Fin 3) * 4096 + 1 * p.val = p.val; omega
  rw [h]

/-- The output block's entry `(u, o, p)` sits at `(batch element, o, p)` of the output array. -/
theorem emb_output (t : Fin cfg0.N) (u : Fin 1) (o : Fin 384) (p : Fin 4096) :
    ((cfg0.win 3).blk t).view.emb (ix3 u o p) = ix3 (batchOf t) o p := by
  obtain ⟨-, -, -, -, -, -, -, -, -, e0, e1, e2⟩ := idx_facts t
  have hu : u.val = 0 := by omega
  funext a; apply Fin.ext
  match a with
  | ⟨0, _⟩ => show win0_3.index t (0 : Fin 3) * 1 + 1 * u.val = t.val; omega
  | ⟨1, _⟩ => show win0_3.index t (1 : Fin 3) * 384 + 1 * o.val = o.val; omega
  | ⟨2, _⟩ => show win0_3.index t (2 : Fin 3) * 4096 + 1 * p.val = p.val; omega

/-! ## What a point writes back, and the array after the region -/

/-- WHAT POINT `t` WRITES BACK is block `t` of `outArr` of the arrays the region finds. -/
theorem flushed_eq (c : Dev nD) (t : Fin cfg0.N) :
    (dats m 0 c).flushed 3 t = ((cfg0.win 3).blk t).view.read (Elt Ideal)
      (outArr (V m c main_arg2) (m ((c : Thread nD τ).loc main_arg1)) (V m c main_v0)) := by
  show (cfg0.win 3).cut (grid0.coords t) ((dats m 0 c).after 3 t) = _
  rw [after0_3]
  unfold out0_3
  rw [View.canon_unit_zero zeros3]
  simp only [View.ld_unit_zero (S := S1x384x384) zeros3, View.ld_unit_zero (S := S1x1x384) zeros3,
    View.ld_unit_zero (S := S1x384x4096) zeros3]
  funext j
  obtain ⟨u, o, p, rfl⟩ : ∃ (u : Fin 1) (o : Fin 384) (p : Fin 4096), j = ix3 u o p := ⟨j 0, j 1, j 2, eq_ix3 j⟩
  show k0_pay1 (iblk m c 0 t) (iblk m c 1 t) (iblk m c 2 t) (ix3 u o p)
    = outArr (V m c main_arg2) (m ((c : Thread nD τ).loc main_arg1)) (V m c main_v0) (((cfg0.win 3).blk t).view.emb (ix3 u o p))
  rw [emb_output t u o p, outArr_ix3]
  refine (Payload.pay_at (iblk m c 0 t) (iblk m c 1 t) (iblk m c 2 t) u o p).trans ?_
  unfold outAt
  have hw : (fun k : Fin 384 => iblk m c 0 t (ix3 (0 : Fin 1) o k)) = fun k => V m c main_arg2 (ix3 (0 : Fin 1) o k) :=
    funext fun k => read_weight m c t o k
  have hy : (fun k : Fin 384 => iblk m c 1 t (ix3 (0 : Fin 1) (0 : Fin 1) k)) = fun k => m ((c : Thread nD τ).loc main_arg1) (ix2 (batchOf t) k) :=
    funext fun k => read_modulation m c t k
  have hx : (fun k : Fin 384 => iblk m c 2 t (ix3 (0 : Fin 1) k p)) = fun k => V m c main_v0 (ix3 (batchOf t) k p) :=
    funext fun k => read_input m c t k p
  rw [hw, hy, hx]

/-- An index of the output array is in point `t`'s block iff each coordinate is in the block's range on its axis. -/
theorem mem_blk (t : Fin cfg0.N) (i : S16x384x4096.Idx) :
    i ∈ ((cfg0.win 3).blk t).view.set ↔ ∀ a : Fin 3, win0_3.index t a * S1x384x4096.size a ≤ (i a).val ∧ (i a).val < win0_3.index t a * S1x384x4096.size a + S1x384x4096.size a := by
  show i ∈ ((View.whole main_v2).slice (win0_3.rect t)).set ↔ _
  rw [View.set_slice_whole, Rect.mem_set_unit]
  exact Iff.rfl

/-- Every index of the output array is in the block of its batch element's point. -/
theorem covered (i : S16x384x4096.Idx) :
    ∃ t : Fin cfg0.N, (cfg0.win 3).flush t = true ∧ i ∈ ((cfg0.win 3).blk t).view.set := by
  have hi0 : (i 0).val < 16 := (i 0).isLt
  have hi1 : (i 1).val < 384 := (i 1).isLt
  have hi2 : (i 2).val < 4096 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 384 ≤ (i 1).val ∧ (i 1).val < win0_3.index t (1 : Fin 3) * 384 + 384; omega
  | ⟨2, _⟩ => show win0_3.index t (2 : Fin 3) * 4096 ≤ (i 2).val ∧ (i 2).val < win0_3.index t (2 : Fin 3) * 4096 + 4096; omega

/-- THE OUTPUT ARRAY after the region is `outArr` of the weight, the modulation and the re-cut input. -/
theorem final (c : Dev nD) :
    (dats m 0 c).arrAt 3 cfg0.N
      = outArr (m ((c : Thread nD τ).loc main_arg2)) (m ((c : Thread nD τ).loc main_arg1))
          (shapeCast S16x384x4096 (m ((c : Thread nD τ).loc main_arg0)) shapeCasts_S16x4096x384_S16x384x4096) := by
  rw [(dats m 0 c).arrAt_eq_of_cover 3 _ (fun t _ => flushed_eq m c t) covered, V_main_arg2, entry_input]

end Cert.KernelIdeal.KValue

end
-- ==== Proof.KernelRun.lean ====
/-
  The kernel program's run, with its result named.

  Every weakly fair execution of the program terminates without a fault (the generated frame run). In its final state
  the output array of the region is `outArr` (KernelValue.lean); the one line after the region re-cuts that array to
  [16, 4096, 384] into the result buffer, which therefore holds the specification's `result` of the three arguments;
  and the arguments are as launched — the weight because the region only reads it, the input and the modulation because
  no line of the program writes them.
-/
import proofs.«109573_j39444979646806_2_alg».proof.Proof.KernelValue

noncomputable section

namespace Cert.KernelIdeal.KValue

open Cert.KernelIdeal Cert.KernelIdeal.Gen Cert.ModLinear
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result buffer after the line that follows the region: the region's output array, re-cut to [16, 4096, 384]. -/
theorem tail_eq (c : Dev nD) :
    Pipeline.afterTail₀ cfgs (dats m) 0 (V0 m) [hostOps1] c main_v3
      = shapeCast S16x4096x384 ((dats m 0 c).arrAt 3 cfg0.N) shapeCasts_S16x384x4096_S16x4096x384 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 3 cfg0.N :=
    Pipeline.withArrays_arr spec0 launch0.win.arr_inj c (V0 m c) (fun w => (dats m 0 c).arrAt w (cfgs 0).N) 3
  rw [e]
  rfl

/-- So the result buffer holds the specification's `result` of the three arguments. -/
theorem tail_result (c : Dev nD) :
    Pipeline.afterTail₀ cfgs (dats m) 0 (V0 m) [hostOps1] c main_v3
      = result (m ((c.tc : Thread nD τ).loc main_arg0)) (m ((c.tc : Thread nD τ).loc main_arg1)) (m ((c.tc : Thread nD τ).loc main_arg2)) := by
  rw [tail_eq, final]
  rfl

/-- THE RUN: every weakly fair execution terminates with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.KValue

end
-- ==== Proof.lean ====
/-
  The certificate of the modulated linear layer: a kernel that, per batch element, modulates the shared weight by the
  element's vector, normalises each modulated row by the reciprocal square root of its sum of squares plus `ε`, and
  multiplies by the element's input matrix — against the array-level reference that does the same with broadcasts, a
  reduction and one batched contraction.

  Over the extended reals the two programs return the same array, entry by entry,

      out[b, o, p] = Σ_k (c · W[o, k] · y[b, k]) · rsqrt(Σ_k' (c · W[o, k'] · y[b, k'])² + ε) · X[b, k, p],

  with `X` the input's row-major sequence re-cut to [16, 384, 4096] and the result re-cut back to [16, 4096, 384]
  (`Cert.ModLinear.result`, Proof/Spec.lean). The operations and their order are the same on both sides — the same
  scale and `ε` constants, the products associated the same way, each sum over the same index set — so the equality
  needs no algebraic law and no finiteness of the inputs. What differs vanishes at the extended reals: the kernel narrows
  the matrix product's operands to a shorter float format (the identity there), accumulates the product into a zero
  block and sums a row by a lane reduction, where the reference contracts and reduces on whole arrays.

  The reference's side (Proof/RefRead.lean) reads its stages at coordinates; the kernel's side reads the body's stored
  block at coordinates (Proof/Payload.lean), shows each grid point writes its batch element's block of one whole-array
  function and that the blocks tile the output (Proof/KernelValue.lean), and follows the re-cut after the region
  (Proof/KernelRun.lean). The three frames are the programs' runs with the result forgotten; the idealization rewrote
  nothing, so there is nothing to preserve.
-/
import proofs.«109573_j39444979646806_2_alg».proof.Defs
import proofs.«109573_j39444979646806_2_alg».proof.Proof.Gen.Kernel
import proofs.«109573_j39444979646806_2_alg».proof.Proof.Gen.Kernel.Skeleton
import proofs.«109573_j39444979646806_2_alg».proof.Proof.Gen.Kernel.Launch
import proofs.«109573_j39444979646806_2_alg».proof.Proof.Gen.Kernel.Points
import proofs.«109573_j39444979646806_2_alg».proof.Proof.Gen.Kernel.Frame
import proofs.«109573_j39444979646806_2_alg».proof.Proof.Gen.KernelIdeal
import proofs.«109573_j39444979646806_2_alg».proof.Proof.Gen.KernelIdeal.Skeleton
import proofs.«109573_j39444979646806_2_alg».proof.Proof.Gen.KernelIdeal.Launch
import proofs.«109573_j39444979646806_2_alg».proof.Proof.Gen.KernelIdeal.Points
import proofs.«109573_j39444979646806_2_alg».proof.Proof.Gen.KernelIdeal.Frame
import proofs.«109573_j39444979646806_2_alg».proof.Proof.Gen.ReferenceIdeal
import proofs.«109573_j39444979646806_2_alg».proof.Proof.Gen.ReferenceIdeal.Run
import proofs.«109573_j39444979646806_2_alg».proof.Proof.Gen.ReferenceIdeal.Read
import proofs.«109573_j39444979646806_2_alg».proof.Proof.Gen.Pre_finite_inputs
import proofs.«109573_j39444979646806_2_alg».proof.Proof.RefRead
import proofs.«109573_j39444979646806_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result buffer at `result` of the arguments:
    the kernel by its run, the reference by its run read stage by stage. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
